-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S2048x1024 : Shape := ⟨2, ![2048, 1024]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S512x2048 .f32) (main_arg1 : FVec F S2048x1024 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  main_v8
-- ==== Kernel.lean ====
abbrev S512x2048 : Shape := ⟨2, ![512, 2048]⟩
abbrev S2048x1024 : Shape := ⟨2, ![2048, 1024]⟩
abbrev S512x1024 : Shape := ⟨2, ![512, 1024]⟩
abbrev S128x2048 : Shape := ⟨2, ![128, 2048]⟩
abbrev S128x1024 : Shape := ⟨2, ![128, 1024]⟩
abbrev S512x32x32 : Shape := ⟨3, ![512, 32, 32]⟩
abbrev S32x512x32 : Shape := ⟨3, ![32, 512, 32]⟩
abbrev S32x32x512 : Shape := ⟨3, ![32, 32, 512]⟩
abbrev S512x32 : Shape := ⟨2, ![512, 32]⟩
abbrev S32x64x32 : Shape := ⟨3, ![32, 64, 32]⟩
abbrev S64x32 : Shape := ⟨2, ![64, 32]⟩
abbrev S1x64x32 : Shape := ⟨3, ![1, 64, 32]⟩
abbrev S1x32x512 : Shape := ⟨3, ![1, 32, 512]⟩
abbrev S32x512 : Shape := ⟨2, ![32, 512]⟩
abbrev S64x32x1 : Shape := ⟨3, ![64, 32, 1]⟩
abbrev S64x32x512 : Shape := ⟨3, ![64, 32, 512]⟩
abbrev S64x512 : Shape := ⟨2, ![64, 512]⟩
abbrev S64 : Shape := ⟨1, ![64]⟩
abbrev S64x1 : Shape := ⟨2, ![64, 1]⟩

abbrev nBuf : Space → Nat
  | .hbm => 9
  | .vmem => 10
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S512x2048, .bf16⟩
  | .hbm, ⟨3, _⟩ => ⟨S2048x1024, .bf16⟩
  | .hbm, ⟨4, _⟩ => ⟨S512x1024, .f32⟩
  | .hbm, ⟨5, _⟩ => ⟨S512x32x32, .f32⟩
  | .hbm, ⟨6, _⟩ => ⟨S32x512x32, .f32⟩
  | .hbm, ⟨7, _⟩ => ⟨S32x32x512, .f32⟩
  | .hbm, ⟨8, _⟩ => ⟨S512x32, .f32⟩
  | .local _ .vmem, ⟨0, _⟩ => ⟨S128x2048, .bf16⟩
  | .local _ .vmem, ⟨1, _⟩ => ⟨S128x2048, .bf16⟩
  | .local _ .vmem, ⟨2, _⟩ => ⟨S2048x1024, .bf16⟩
  | .local _ .vmem, ⟨3, _⟩ => ⟨S128x1024, .f32⟩
  | .local _ .vmem, ⟨4, _⟩ => ⟨S128x1024, .f32⟩
  | .local _ .vmem, ⟨5, _⟩ => ⟨S32x64x32, .f32⟩
  | .local _ .vmem, ⟨6, _⟩ => ⟨S32x64x32, .f32⟩
  | .local _ .vmem, ⟨7, _⟩ => ⟨S32x32x512, .f32⟩
  | .local _ .vmem, ⟨8, _⟩ => ⟨S64x32, .f32⟩
  | .local _ .vmem, ⟨9, _⟩ => ⟨S64x32, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S32x64x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x32x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S64x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S128x1024_S128x1024_0_0 : ∀ a, (![0, 0] : Fin 2 → Nat) a + S128x1024.size a ≤ S128x1024.size a
  h_S128x1024 : 0 < S128x1024.numel
  shapeCasts_S512x1024_S512x32x32 : S512x1024.ShapeCasts S512x32x32
  transposes_S512x32x32_S32x512x32_2_0_1 : S512x32x32.Transposes [2, 0, 1] S32x512x32
  transposes_S512x32x32_S32x32x512_2_1_0 : S512x32x32.Transposes [2, 1, 0] S32x32x512
  inb_S32x64x32_S1x64x32_0_0_0 : ∀ a, (![0, 0, 0] : Fin 3 → Nat) a + S1x64x32.size a ≤ S32x64x32.size a
  h_S1x64x32 : 0 < S1x64x32.numel
  shapeCasts_S1x64x32_S64x32 : S1x64x32.ShapeCasts S64x32
  inb_S32x32x512_S1x32x512_0_0_0 : ∀ a, (![0, 0, 0] : Fin 3 → Nat) a + S1x32x512.size a ≤ S32x32x512.size a
  h_S1x32x512 : 0 < S1x32x512.numel
  shapeCasts_S1x32x512_S32x512 : S1x32x512.ShapeCasts S32x512
  shapeCasts_S64x32_S64x32x1 : S64x32.ShapeCasts S64x32x1
  shapeCasts_S32x512_S1x32x512 : S32x512.ShapeCasts S1x32x512
  broadcasts_S64x32x1_S64x32x512 : S64x32x1.Broadcasts S64x32x512
  broadcasts_S1x32x512_S64x32x512 : S1x32x512.Broadcasts S64x32x512
  reduces_S64x32x512_S64x512 : S64x32x512.Reduces [1] S64x512
  reduces_S64x512_S64 : S64x512.Reduces [1] S64
  shapeCasts_S64_S64x1 : S64.ShapeCasts S64x1
  inb_S32x64x32_S1x64x32_1_0_0 : ∀ a, (![1, 0, 0] : Fin 3 → Nat) a + S1x64x32.size a ≤ S32x64x32.size a
  inb_S32x32x512_S1x32x512_1_0_0 : ∀ a, (![1, 0, 0] : Fin 3 → Nat) a + S1x32x512.size a ≤ S32x32x512.size a
  inb_S32x64x32_S1x64x32_2_0_0 : ∀ a, (![2, 0, 0] : Fin 3 → Nat) a + S1x64x32.size a ≤ S32x64x32.size a
  inb_S32x32x512_S1x32x512_2_0_0 : ∀ a, (![2, 0, 0] : Fin 3 → Nat) a + S1x32x512.size a ≤ S32x32x512.size a
  inb_S32x64x32_S1x64x32_3_0_0 : ∀ a, (![3, 0, 0] : Fin 3 → Nat) a + S1x64x32.size a ≤ S32x64x32.size a
  inb_S32x32x512_S1x32x512_3_0_0 : ∀ a, (![3, 0, 0] : Fin 3 → Nat) a + S1x32x512.size a ≤ S32x32x512.size a
  inb_S32x64x32_S1x64x32_4_0_0 : ∀ a, (![4, 0, 0] : Fin 3 → Nat) a + S1x64x32.size a ≤ S32x64x32.size a
  inb_S32x32x512_S1x32x512_4_0_0 : ∀ a, (![4, 0, 0] : Fin 3 → Nat) a + S1x32x512.size a ≤ S32x32x512.size a
  inb_S32x64x32_S1x64x32_5_0_0 : ∀ a, (![5, 0, 0] : Fin 3 → Nat) a + S1x64x32.size a ≤ S32x64x32.size a
  inb_S32x32x512_S1x32x512_5_0_0 : ∀ a, (![5, 0, 0] : Fin 3 → Nat) a + S1x32x512.size a ≤ S32x32x512.size a
  inb_S32x64x32_S1x64x32_6_0_0 : ∀ a, (![6, 0, 0] : Fin 3 → Nat) a + S1x64x32.size a ≤ S32x64x32.size a
  inb_S32x32x512_S1x32x512_6_0_0 : ∀ a, (![6, 0, 0] : Fin 3 → Nat) a + S1x32x512.size a ≤ S32x32x512.size a
  inb_S32x64x32_S1x64x32_7_0_0 : ∀ a, (![7, 0, 0] : Fin 3 → Nat) a + S1x64x32.size a ≤ S32x64x32.size a
  inb_S32x32x512_S1x32x512_7_0_0 : ∀ a, (![7, 0, 0] : Fin 3 → Nat) a + S1x32x512.size a ≤ S32x32x512.size a
  inb_S32x64x32_S1x64x32_8_0_0 : ∀ a, (![8, 0, 0] : Fin 3 → Nat) a + S1x64x32.size a ≤ S32x64x32.size a
  inb_S32x32x512_S1x32x512_8_0_0 : ∀ a, (![8, 0, 0] : Fin 3 → Nat) a + S1x32x512.size a ≤ S32x32x512.size a
  inb_S32x64x32_S1x64x32_9_0_0 : ∀ a, (![9, 0, 0] : Fin 3 → Nat) a + S1x64x32.size a ≤ S32x64x32.size a
  inb_S32x32x512_S1x32x512_9_0_0 : ∀ a, (![9, 0, 0] : Fin 3 → Nat) a + S1x32x512.size a ≤ S32x32x512.size a
  inb_S32x64x32_S1x64x32_10_0_0 : ∀ a, (![10, 0, 0] : Fin 3 → Nat) a + S1x64x32.size a ≤ S32x64x32.size a
  inb_S32x32x512_S1x32x512_10_0_0 : ∀ a, (![10, 0, 0] : Fin 3 → Nat) a + S1x32x512.size a ≤ S32x32x512.size a
  inb_S32x64x32_S1x64x32_11_0_0 : ∀ a, (![11, 0, 0] : Fin 3 → Nat) a + S1x64x32.size a ≤ S32x64x32.size a
  inb_S32x32x512_S1x32x512_11_0_0 : ∀ a, (![11, 0, 0] : Fin 3 → Nat) a + S1x32x512.size a ≤ S32x32x512.size a
  inb_S32x64x32_S1x64x32_12_0_0 : ∀ a, (![12, 0, 0] : Fin 3 → Nat) a + S1x64x32.size a ≤ S32x64x32.size a
  inb_S32x32x512_S1x32x512_12_0_0 : ∀ a, (![12, 0, 0] : Fin 3 → Nat) a + S1x32x512.size a ≤ S32x32x512.size a
  inb_S32x64x32_S1x64x32_13_0_0 : ∀ a, (![13, 0, 0] : Fin 3 → Nat) a + S1x64x32.size a ≤ S32x64x32.size a
  inb_S32x32x512_S1x32x512_13_0_0 : ∀ a, (![13, 0, 0] : Fin 3 → Nat) a + S1x32x512.size a ≤ S32x32x512.size a
  inb_S32x64x32_S1x64x32_14_0_0 : ∀ a, (![14, 0, 0] : Fin 3 → Nat) a + S1x64x32.size a ≤ S32x64x32.size a
  inb_S32x32x512_S1x32x512_14_0_0 : ∀ a, (![14, 0, 0] : Fin 3 → Nat) a + S1x32x512.size a ≤ S32x32x512.size a
  inb_S32x64x32_S1x64x32_15_0_0 : ∀ a, (![15, 0, 0] : Fin 3 → Nat) a + S1x64x32.size a ≤ S32x64x32.size a
  inb_S32x32x512_S1x32x512_15_0_0 : ∀ a, (![15, 0, 0] : Fin 3 → Nat) a + S1x32x512.size a ≤ S32x32x512.size a
  inb_S32x64x32_S1x64x32_16_0_0 : ∀ a, (![16, 0, 0] : Fin 3 → Nat) a + S1x64x32.size a ≤ S32x64x32.size a
  inb_S32x32x512_S1x32x512_16_0_0 : ∀ a, (![16, 0, 0] : Fin 3 → Nat) a + S1x32x512.size a ≤ S32x32x512.size a
  inb_S32x64x32_S1x64x32_17_0_0 : ∀ a, (![17, 0, 0] : Fin 3 → Nat) a + S1x64x32.size a ≤ S32x64x32.size a
  inb_S32x32x512_S1x32x512_17_0_0 : ∀ a, (![17, 0, 0] : Fin 3 → Nat) a + S1x32x512.size a ≤ S32x32x512.size a
  inb_S32x64x32_S1x64x32_18_0_0 : ∀ a, (![18, 0, 0] : Fin 3 → Nat) a + S1x64x32.size a ≤ S32x64x32.size a
  inb_S32x32x512_S1x32x512_18_0_0 : ∀ a, (![18, 0, 0] : Fin 3 → Nat) a + S1x32x512.size a ≤ S32x32x512.size a
  inb_S32x64x32_S1x64x32_19_0_0 : ∀ a, (![19, 0, 0] : Fin 3 → Nat) a + S1x64x32.size a ≤ S32x64x32.size a
  inb_S32x32x512_S1x32x512_19_0_0 : ∀ a, (![19, 0, 0] : Fin 3 → Nat) a + S1x32x512.size a ≤ S32x32x512.size a
  inb_S32x64x32_S1x64x32_20_0_0 : ∀ a, (![20, 0, 0] : Fin 3 → Nat) a + S1x64x32.size a ≤ S32x64x32.size a
  inb_S32x32x512_S1x32x512_20_0_0 : ∀ a, (![20, 0, 0] : Fin 3 → Nat) a + S1x32x512.size a ≤ S32x32x512.size a
  inb_S32x64x32_S1x64x32_21_0_0 : ∀ a, (![21, 0, 0] : Fin 3 → Nat) a + S1x64x32.size a ≤ S32x64x32.size a
  inb_S32x32x512_S1x32x512_21_0_0 : ∀ a, (![21, 0, 0] : Fin 3 → Nat) a + S1x32x512.size a ≤ S32x32x512.size a
  inb_S32x64x32_S1x64x32_22_0_0 : ∀ a, (![22, 0, 0] : Fin 3 → Nat) a + S1x64x32.size a ≤ S32x64x32.size a
  inb_S32x32x512_S1x32x512_22_0_0 : ∀ a, (![22, 0, 0] : Fin 3 → Nat) a + S1x32x512.size a ≤ S32x32x512.size a
  inb_S32x64x32_S1x64x32_23_0_0 : ∀ a, (![23, 0, 0] : Fin 3 → Nat) a + S1x64x32.size a ≤ S32x64x32.size a
  inb_S32x32x512_S1x32x512_23_0_0 : ∀ a, (![23, 0, 0] : Fin 3 → Nat) a + S1x32x512.size a ≤ S32x32x512.size a
  inb_S32x64x32_S1x64x32_24_0_0 : ∀ a, (![24, 0, 0] : Fin 3 → Nat) a + S1x64x32.size a ≤ S32x64x32.size a
  inb_S32x32x512_S1x32x512_24_0_0 : ∀ a, (![24, 0, 0] : Fin 3 → Nat) a + S1x32x512.size a ≤ S32x32x512.size a
  inb_S32x64x32_S1x64x32_25_0_0 : ∀ a, (![25, 0, 0] : Fin 3 → Nat) a + S1x64x32.size a ≤ S32x64x32.size a
  inb_S32x32x512_S1x32x512_25_0_0 : ∀ a, (![25, 0, 0] : Fin 3 → Nat) a + S1x32x512.size a ≤ S32x32x512.size a
  inb_S32x64x32_S1x64x32_26_0_0 : ∀ a, (![26, 0, 0] : Fin 3 → Nat) a + S1x64x32.size a ≤ S32x64x32.size a
  inb_S32x32x512_S1x32x512_26_0_0 : ∀ a, (![26, 0, 0] : Fin 3 → Nat) a + S1x32x512.size a ≤ S32x32x512.size a
  inb_S32x64x32_S1x64x32_27_0_0 : ∀ a, (![27, 0, 0] : Fin 3 → Nat) a + S1x64x32.size a ≤ S32x64x32.size a
  inb_S32x32x512_S1x32x512_27_0_0 : ∀ a, (![27, 0, 0] : Fin 3 → Nat) a + S1x32x512.size a ≤ S32x32x512.size a
  inb_S32x64x32_S1x64x32_28_0_0 : ∀ a, (![28, 0, 0] : Fin 3 → Nat) a + S1x64x32.size a ≤ S32x64x32.size a
  inb_S32x32x512_S1x32x512_28_0_0 : ∀ a, (![28, 0, 0] : Fin 3 → Nat) a + S1x32x512.size a ≤ S32x32x512.size a
  inb_S32x64x32_S1x64x32_29_0_0 : ∀ a, (![29, 0, 0] : Fin 3 → Nat) a + S1x64x32.size a ≤ S32x64x32.size a
  inb_S32x32x512_S1x32x512_29_0_0 : ∀ a, (![29, 0, 0] : Fin 3 → Nat) a + S1x32x512.size a ≤ S32x32x512.size a
  inb_S32x64x32_S1x64x32_30_0_0 : ∀ a, (![30, 0, 0] : Fin 3 → Nat) a + S1x64x32.size a ≤ S32x64x32.size a
  inb_S32x32x512_S1x32x512_30_0_0 : ∀ a, (![30, 0, 0] : Fin 3 → Nat) a + S1x32x512.size a ≤ S32x32x512.size a
  inb_S32x64x32_S1x64x32_31_0_0 : ∀ a, (![31, 0, 0] : Fin 3 → Nat) a + S1x64x32.size a ≤ S32x64x32.size a
  inb_S32x32x512_S1x32x512_31_0_0 : ∀ a, (![31, 0, 0] : Fin 3 → Nat) a + S1x32x512.size a ≤ S32x32x512.size a
  concatenates_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x1_S64x32_d1 : Shape.Concatenates [S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1, S64x1] S64x32 1
  inb_S64x32_S64x32_0_0 : ∀ a, (![0, 0] : Fin 2 → Nat) a + S64x32.size a ≤ S64x32.size a
  h_S64x32 : 0 < S64x32.numel
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S512x2048.size a
  hwx0_0 : ∀ i : grid0.Coords, EltTy.bits .bf16 = 32 ∨ (Rect.block (s := S512x2048) S128x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S512x1024.size a
  hwx0_2 : ∀ i : grid0.Coords, EltTy.bits .f32 = 32 ∨ (Rect.block (s := S512x1024) S128x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x64x32.size a ≤ S32x512x32.size a
  hwx1_0 : ∀ i : grid1.Coords, EltTy.bits .f32 = 32 ∨ (Rect.block (s := S32x512x32) S32x64x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x32x512.size a ≤ S32x32x512.size a
  hwx1_1 : ∀ i : grid1.Coords, EltTy.bits .f32 = 32 ∨ (Rect.block (s := S32x32x512) S32x32x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S512x32.size a
  hwx1_2 : ∀ i : grid1.Coords, EltTy.bits .f32 = 32 ∨ (Rect.block (s := S512x32) S64x32.size (cc1_transform_2 i) (hinb1_2 i)).WholeWords (EltTy.packing .f32)

variable [Facts₀]

def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S32x64x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S32x32x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S64x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x2048 : Shape := ⟨2, ![512, 2048]⟩
abbrev S2048x1024 : Shape := ⟨2, ![2048, 1024]⟩
abbrev S512x1024 : Shape := ⟨2, ![512, 1024]⟩
abbrev S512x32x32 : Shape := ⟨3, ![512, 32, 32]⟩
abbrev S512x32x32x1 : Shape := ⟨4, ![512, 32, 32, 1]⟩
abbrev S32x32x512 : Shape := ⟨3, ![32, 32, 512]⟩
abbrev S1x32x32x512 : Shape := ⟨4, ![1, 32, 32, 512]⟩
abbrev S512x32x32x512 : Shape := ⟨4, ![512, 32, 32, 512]⟩
abbrev S_ : Shape := ⟨0, ![]⟩
abbrev S512x32x512 : Shape := ⟨3, ![512, 32, 512]⟩
abbrev S512x32 : Shape := ⟨2, ![512, 32]⟩

abbrev nBuf : Space → Nat
  | .hbm => 17
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x1024, .f32⟩
  | .hbm, ⟨2, _⟩ => ⟨S512x1024, .f32⟩
  | .hbm, ⟨3, _⟩ => ⟨S512x32x32, .f32⟩
  | .hbm, ⟨4, _⟩ => ⟨S512x32x32x1, .f32⟩
  | .hbm, ⟨5, _⟩ => ⟨S32x32x512, .f32⟩
  | .hbm, ⟨6, _⟩ => ⟨S1x32x32x512, .f32⟩
  | .hbm, ⟨7, _⟩ => ⟨S512x32x32x512, .f32⟩
  | .hbm, ⟨8, _⟩ => ⟨S512x32x32x512, .f32⟩
  | .hbm, ⟨9, _⟩ => ⟨S512x32x32x512, .f32⟩
  | .hbm, ⟨10, _⟩ => ⟨S512x32x32x512, .f32⟩
  | .hbm, ⟨11, _⟩ => ⟨S_, .f32⟩
  | .hbm, ⟨12, _⟩ => ⟨S512x32x512, .f32⟩
  | .hbm, ⟨13, _⟩ => ⟨S512x32x512, .f32⟩
  | .hbm, ⟨14, _⟩ => ⟨S512x32x512, .f32⟩
  | .hbm, ⟨15, _⟩ => ⟨S_, .f32⟩
  | .hbm, ⟨16, _⟩ => ⟨S512x32, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  shapeCasts_S512x1024_S512x32x32 : S512x1024.ShapeCasts S512x32x32
  bcast_S512x32x32_S512x32x32x1_0_1_2 : S512x32x32.BroadcastsInDim S512x32x32x1 (![0, 1, 2] : Fin 3 → Fin S512x32x32x1.rank)
  transposes_S512x32x32_S32x32x512_1_2_0 : S512x32x32.Transposes [1, 2, 0] S32x32x512
  bcast_S32x32x512_S1x32x32x512_1_2_3 : S32x32x512.BroadcastsInDim S1x32x32x512 (![1, 2, 3] : Fin 3 → Fin S1x32x32x512.rank)
  bcast_S512x32x32x1_S512x32x32x512_0_1_2_3 : S512x32x32x1.BroadcastsInDim S512x32x32x512 (![0, 1, 2, 3] : Fin 4 → Fin S512x32x32x512.rank)
  bcast_S1x32x32x512_S512x32x32x512_0_1_2_3 : S1x32x32x512.BroadcastsInDim S512x32x32x512 (![0, 1, 2, 3] : Fin 4 → Fin S512x32x32x512.rank)
  reducesTo_S512x32x32x512_S512x32x512_d1 : S512x32x32x512.ReducesTo [1] S512x32x512
  h_S_ : 0 < S_.numel
  reducesTo_S512x32x512_S512x32_d2 : S512x32x512.ReducesTo [2] S512x32
  dot_S512x2048_S2048x1024_S512x1024_1_0_0_1_n_n_wf : DotDims.WF S512x2048 S2048x1024 S512x1024 [1] [0] [0] [1] [] []

variable [Facts₀]

def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

class Facts : Prop extends Facts₀ where

variable [Facts]
-- ==== Proof.RunNamed.lean ====
/-
  The idealized kernel's run with its result named.

  The program is four segments in a row: the two casts of the arguments, the matrix-product region, the reshape and the
  two transposes of the product, and the pairwise region. Every weakly fair execution runs them in order and
  terminates, and the buffers it ends with are the fold of the four segments over the launch memory. Read at the
  result buffer this says the result ends at what the last region's write-backs leave; read at the two argument
  buffers it says they end as launched, since no segment writes them.
-/
import proofs.«170710_j27058293965069_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at the last boundary's contents,
    and the two arguments end as launched. -/
theorem run : θ_run defs (onTc (τ := τ) (main (F := F))) ⟨m, fun _ => 0, ρ⟩ (fun r => ∀ c : Dev nD,
      r.2.mem ((c.tc : Thread nD τ).loc main_v6) = W4 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v6 (by decide)),
       (h c _ (mem_uc main_arg0 (by decide))).trans (W4_main_arg0 m ρ c),
       (h c _ (mem_uc main_arg1 (by decide))).trans (W4_main_arg1 m ρ c)⟩)

end Cert.KernelIdeal.Named

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibLayout3.lean ====
/-
  Layout operations on rank-3 arrays read at an index written by coordinates.

  Merging the two leading axes of an [a, b, c] array into one of extent a·b (and splitting it back) keeps entry
  (p, q, e) at row p·b + q; inserting a unit middle axis keeps (p, e) at (p, 0, e); broadcasting along that unit
  axis reads (p, 0, e) at every (p, q, e); a unit-stride slice along the last axis from offset o reads the source
  at last coordinate o + j.
-/
import Idealize.ShloMosaic.Lib.Pipeline.Value
import Idealize.ShloMosaic.Lib.ValueIdx

namespace Cert.LibLayout3

open Idealize.ShloMosaic Idealize.ShloMosaic.ValueIdx

variable {α : Type}

/-- An [a, b, c] array cast to an [m, c] matrix (m = a·b) reads, at row r = p·b + q, the array at (p, q, ·). -/
theorem shapeCast_abc_mc_apply {a b c m : ℕ} (x : (⟨3, ![a, b, c]⟩ : Shape).Idx → α)
    (h : (⟨3, ![a, b, c]⟩ : Shape).ShapeCasts ⟨2, ![m, c]⟩) (p : Fin a) (q : Fin b) (e : Fin c) (r : Fin m)
    (hr : r.val = p.val * b + q.val) :
    shapeCast ⟨2, ![m, c]⟩ x h (ix2 r e) = x (ix3 p q e) :=
  shapeCast_apply x h _ _ (by
    rw [Shape.rowMajor_val_three, Shape.rowMajor_val_two]
    show (p.val * b + q.val) * c + e.val = r.val * c + e.val
    rw [hr])

/-- An [m, c] matrix (m = a·b) cast to an [a, b, c] array reads, at (p, q, ·), the matrix at row r = p·b + q. -/
theorem shapeCast_mc_abc_apply {a b c m : ℕ} (x : (⟨2, ![m, c]⟩ : Shape).Idx → α)
    (h : (⟨2, ![m, c]⟩ : Shape).ShapeCasts ⟨3, ![a, b, c]⟩) (p : Fin a) (q : Fin b) (e : Fin c) (r : Fin m)
    (hr : r.val = p.val * b + q.val) :
    shapeCast ⟨3, ![a, b, c]⟩ x h (ix3 p q e) = x (ix2 r e) :=
  shapeCast_apply x h _ _ (by
    rw [Shape.rowMajor_val_two, Shape.rowMajor_val_three]
    show r.val * c + e.val = (p.val * b + q.val) * c + e.val
    rw [hr])

/-- An [a, c] matrix cast to [a, 1, c] reads, at (p, u, e), the matrix at (p, e). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (e : Fin c) :
    shapeCast ⟨3, ![a, 1, c]⟩ x h (ix3 p u e) = x (ix2 p e) :=
  shapeCast_apply x h _ _ (by
    have hu : u.val = 0 := by omega
    rw [Shape.rowMajor_val_two, Shape.rowMajor_val_three]
    show p.val * c + e.val = (p.val * 1 + u.val) * c + e.val
    rw [hu, Nat.mul_one, Nat.add_zero])

/-- An [a, 1, c] array broadcast along its unit axis to [a, b, c] reads, at (p, q, e), the operand at (p, 0, e). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- A rank-3 array cut along its last axis from o reads, at (a, b, j), the source at (a, b, k) with k = o + j. -/
theorem slice3_axis2_apply {n0 n1 n2 m : Nat} (o : Nat) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

end Cert.LibLayout3
-- ==== Proof.LibRank3.lean ====
/-
  Rank-3 arrays with a unit first or last axis, and a sum along the middle axis, read at one entry.

  An a-by-b matrix and the [a, b, 1] array with the same entries are one row-major list, so the reshape reads (p, q, 0)
  at (p, q). Broadcasting an [a, b, 1] array along its unit last axis to [a, b, c] reads (p, q, 0) at every (p, q, e);
  broadcasting a [1, b, c] array along its unit first axis to [a, b, c] reads (0, q, e) at every (p, q, e). The sum
  along the middle axis of an [a, b, c] array, taken from the zero accumulator, is at (p, e) the sum over q < b of the
  entries (p, q, e), at the exact (extended real) reading of floats.
-/
import Idealize.ShloMosaic.Lib.Pipeline.Value
import Idealize.ShloMosaic.Lib.ValueIdx
import Idealize.ShloMosaic.PureOps.Ideal.Laws

noncomputable section

namespace Cert.LibRank3

open Idealize.ShloMosaic Idealize.ShloMosaic.ValueIdx

variable {α : Type}

/-- An [a, b] matrix cast to [a, b, 1] reads, at (p, q, u), the matrix at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An [a, b, 1] array broadcast along its unit last axis to [a, b, c] reads, at (p, q, e), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A [1, b, c] array broadcast along its unit first axis to [a, b, c] reads, at (p, q, e), the operand at (0, q, e). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- The sum along the middle axis of an [a, b, c] array, from the zero accumulator, at (p, e): the sum over q of the
    entries (p, q, e). -/
theorem midSum_apply {a b c : ℕ} (src : FVec Ideal ⟨3, ![a, b, c]⟩ .f32) (h : Shape.Reduces ⟨3, ![a, b, c]⟩ [1] ⟨2, ![a, c]⟩)
    (hφ : FKind.Formats .f32) (hacc : (0x00000000#32 : BitVec 32) = 0x00000000#32) (p : Fin a) (e : Fin c) :
    multiReduction .add [1] ⟨2, ![a, c]⟩ src 0x00000000#32 h hφ hacc (ix2 p e) = ∑ q : Fin b, src (ix3 p q e) := by
  refine (Ideal.multiReduction_add_single src 0x00000000#32 h hφ hacc (ix2 p e)).trans ?_
  refine Finset.sum_congr rfl fun q _ => congrArg src ?_
  funext ax
  exact Fin.ext (by match ax with | ⟨0, _⟩ => rfl | ⟨1, _⟩ => rfl | ⟨2, _⟩ => rfl)

end Cert.LibRank3

end
-- ==== Proof.Piece.lean ====
/-
  One output of the pairwise body, and the body's whole stored value, read at an entry.

  The body treats the 32 outputs alike. For output o it takes the 64-by-32 slab r of the row operand (64 rows of the
  tile, 32 units) and the 32-by-512 slab s of the column operand (32 units, all 512 rows), forms |r[p, u] − s[u, j]|,
  sums over the units u, negates by subtracting from zero, exponentiates, and sums over all rows j: a column of 64
  numbers. The stored 64-by-32 value puts the 32 columns side by side, so its entry (p, o) is the column of output o
  at p: the sum over j of exp(0 − sum over u of |row[o, p, u] − col[o, u, j]|).
-/
import proofs.«170710_j27058293965069_2_alg».proof.Proof.Gen.KernelIdeal.Frame
import proofs.«170710_j27058293965069_2_alg».proof.Proof.LibColumn
import proofs.«170710_j27058293965069_2_alg».proof.Proof.LibLayout3
import proofs.«170710_j27058293965069_2_alg».proof.Proof.LibRank3
import Idealize.ShloMosaic.Lib.Pipeline.Value
import Idealize.ShloMosaic.Lib.ValueIdx
import Idealize.ShloMosaic.PureOps.Ideal.Laws

set_option maxRecDepth 16384

noncomputable section

namespace Cert.KernelIdeal.Pair

open Cert.KernelIdeal Cert.KernelIdeal.Gen
open Idealize.ShloMosaic Idealize.ShloMosaic.ValueIdx

variable {F : FTy → Type} [FloatOps F]

/-- One output's column from its two slabs: the body's operations for one output, in order. -/
def piece (xr : Vec F S1x64x32 .f32) (xc : Vec F S1x32x512 .f32) : FVec F S64x1 .f32 :=
  shapeCast S64x1
    (multiReduction .add [1] S64
      (exp (subf (broadcast S64x512 (Scalar.ofBits .f32 0x00000000#32))
        (multiReduction .add [1] S64x512
          (absf (subf
            (broadcastTo S64x32x512 (shapeCast S64x32x1 (shapeCast S64x32 xr shapeCasts_S1x64x32_S64x32) shapeCasts_S64x32_S64x32x1) broadcasts_S64x32x1_S64x32x512)
            (broadcastTo S64x32x512 (shapeCast S1x32x512 (shapeCast S32x512 xc shapeCasts_S1x32x512_S32x512) shapeCasts_S32x512_S1x32x512) broadcasts_S1x32x512_S64x32x512)))
          0x00000000#32 reduces_S64x32x512_S64x512 (.inl rfl) rfl)))
      0x00000000#32 reduces_S64x512_S64 (.inl rfl) rfl)
    shapeCasts_S64_S64x1

/-- The slab of the row operand for output o: all of [o, ·, ·]. -/
abbrev rowRect (o : Fin 32) : Rect S32x64x32 :=
  Rect.unit (s := S32x64x32) ![o.val, 0, 0] S1x64x32.size (fun a => by
    have := o.isLt
    match a with
    | ⟨0, _⟩ => show o.val + 1 ≤ 32; omega
    | ⟨1, _⟩ => show 0 + 64 ≤ 64; omega
    | ⟨2, _⟩ => show 0 + 32 ≤ 32; omega)

/-- The slab of the column operand for output o: all of [o, ·, ·]. -/
abbrev colRect (o : Fin 32) : Rect S32x32x512 :=
  Rect.unit (s := S32x32x512) ![o.val, 0, 0] S1x32x512.size (fun a => by
    have := o.isLt
    match a with
    | ⟨0, _⟩ => show o.val + 1 ≤ 32; omega
    | ⟨1, _⟩ => show 0 + 32 ≤ 32; omega
    | ⟨2, _⟩ => show 0 + 512 ≤ 512; omega)

/-- The 32 columns, one per output, as a list. -/
abbrev cols (x0 : Vec F S32x64x32 .f32) (x1 : Vec F S32x32x512 .f32) : List ((s : Shape) × (s.Idx → F .f32)) :=
  List.ofFn fun n : Fin 32 => (⟨S64x1, piece (View.ld x0 (rowRect n)) (View.ld x1 (colRect n))⟩ : (s : Shape) × (s.Idx → F .f32))

theorem cols_cat (x0 : Vec F S32x64x32 .f32) (x1 : Vec F S32x32x512 .f32) :
    Shape.Concatenates ((cols x0 x1).map (·.1)) S64x32 1 := by
  have e : (cols x0 x1).map (·.1) = List.ofFn fun _ : Fin 32 => S64x1 := by
    simp only [cols, List.map_ofFn, Function.comp_def]
  rw [e]
  decide

/-- The body's stored value is the 32 columns side by side: each generated fragment is one output's column. -/
theorem pay_fold (x0 : Vec F S32x64x32 .f32) (x1 : Vec F S32x32x512 .f32) :
    k1_pay2 (k1_pay3 (View.ld x0 r1_0) (View.ld x1 r1_1)) (k1_pay4 (View.ld x0 r1_2) (View.ld x1 r1_3)) (k1_pay6 (k1_pay5 (View.ld x0 r1_4)) (View.ld x1 r1_5)) (k1_pay7 (View.ld x0 r1_6) (View.ld x1 r1_7)) (k1_pay9 (k1_pay8 (View.ld x0 r1_8) (View.ld x1 r1_9)) (Scalar.ofBits .f32 0x00000000#32)) (k1_pay10 (View.ld x0 r1_10) (View.ld x1 r1_11)) (k1_pay11 (View.ld x0 r1_12) (View.ld x1 r1_13)) (k1_pay12 (View.ld x0 r1_14) (View.ld x1 r1_15)) (k1_pay13 (View.ld x0 r1_16) (View.ld x1 r1_17)) (k1_pay16 (k1_pay14 (View.ld x0 r1_18)) (k1_pay15 (View.ld x1 r1_19))) (k1_pay17 (View.ld x0 r1_20) (View.ld x1 r1_21)) (k1_pay19 (k1_pay18 (View.ld x0 r1_22) (View.ld x1 r1_23))) (k1_pay20 (View.ld x0 r1_24) (View.ld x1 r1_25)) (k1_pay21 (View.ld x0 r1_26) (View.ld x1 r1_27)) (k1_pay23 (k1_pay22 (View.ld x0 r1_28)) (View.ld x1 r1_29)) (k1_pay24 (View.ld x0 r1_30) (View.ld x1 r1_31)) (k1_pay26 (k1_pay25 (View.ld x0 r1_32) (View.ld x1 r1_33)) (Scalar.ofBits .f32 0x00000000#32)) (k1_pay27 (View.ld x0 r1_34) (View.ld x1 r1_35)) (k1_pay28 (View.ld x0 r1_36) (View.ld x1 r1_37)) (k1_pay29 (View.ld x0 r1_38) (View.ld x1 r1_39)) (k1_pay30 (View.ld x0 r1_40) (View.ld x1 r1_41)) (k1_pay33 (k1_pay31 (View.ld x0 r1_42)) (k1_pay32 (View.ld x1 r1_43))) (k1_pay34 (View.ld x0 r1_44) (View.ld x1 r1_45)) (k1_pay36 (k1_pay35 (View.ld x0 r1_46) (View.ld x1 r1_47))) (k1_pay37 (View.ld x0 r1_48) (View.ld x1 r1_49)) (k1_pay38 (View.ld x0 r1_50) (View.ld x1 r1_51)) (k1_pay40 (k1_pay39 (View.ld x0 r1_52)) (View.ld x1 r1_53)) (k1_pay41 (View.ld x0 r1_54) (View.ld x1 r1_55)) (k1_pay43 (k1_pay42 (View.ld x0 r1_56) (View.ld x1 r1_57)) (Scalar.ofBits .f32 0x00000000#32)) (k1_pay44 (View.ld x0 r1_58) (View.ld x1 r1_59)) (k1_pay45 (View.ld x0 r1_60) (View.ld x1 r1_61)) (k1_pay1 (View.ld x0 r1_62) (View.ld x1 r1_63))
      = concatenate S64x32 1 (cols x0 x1) (cols_cat x0 x1) := rfl

/-- The row slab of output o reads the row operand at [o, p, u]. -/
theorem ld_row (x0 : Vec F S32x64x32 .f32) (o : Fin 32) (p : Fin 64) (u : Fin 32) :
    View.ld x0 (rowRect o) (ix3 (0 : Fin 1) p u) = x0 (ix3 o p u) := by
  show x0 ((rowRect o).emb (ix3 (0 : Fin 1) p u)) = _
  refine congrArg x0 (funext fun a => Fin.ext ?_)
  match a with
  | ⟨0, _⟩ => show o.val + 1 * 0 = o.val; omega
  | ⟨1, _⟩ => show 0 + 1 * p.val = p.val; omega
  | ⟨2, _⟩ => show 0 + 1 * u.val = u.val; omega

/-- The column slab of output o reads the column operand at [o, u, j]. -/
theorem ld_col (x1 : Vec F S32x32x512 .f32) (o : Fin 32) (u : Fin 32) (j : Fin 512) :
    View.ld x1 (colRect o) (ix3 (0 : Fin 1) u j) = x1 (ix3 o u j) := by
  show x1 ((colRect o).emb (ix3 (0 : Fin 1) u j)) = _
  refine congrArg x1 (funext fun a => Fin.ext ?_)
  match a with
  | ⟨0, _⟩ => show o.val + 1 * 0 = o.val; omega
  | ⟨1, _⟩ => show 0 + 1 * u.val = u.val; omega
  | ⟨2, _⟩ => show 0 + 1 * j.val = j.val; omega

/-- One output's column at row p: the sum over all rows j of exp(−(sum over units u of |r[p, u] − s[u, j]|)). -/
theorem piece_apply (xr : Vec Ideal S1x64x32 .f32) (xc : Vec Ideal S1x32x512 .f32) (p : Fin 64) (z : Fin 1) :
    piece (F := Ideal) xr xc (ix2 p z)
      = ∑ j : Fin 512, Ideal.exp (-(∑ u : Fin 32, FloatOps.absf (F := Ideal) (φ := .f32) (xr (ix3 (0 : Fin 1) p u) - xc (ix3 (0 : Fin 1) u j)))) := by
  unfold piece
  rw [Cert.LibColumn.shapeCast_a_a1_apply, Cert.LibColumn.laneSum_apply]
  refine Finset.sum_congr rfl fun j _ => ?_
  show Ideal.exp (Ideal.ofBits .f32 0x00000000#32 - (multiReduction (F := Ideal) .add [1] S64x512 _ 0x00000000#32 reduces_S64x32x512_S64x512 (.inl rfl) rfl) (ix2 p j)) = _
  rw [Cert.LibRank3.midSum_apply, Ideal.ofBits_zero_f32, zero_sub]
  refine congrArg Ideal.exp (congrArg Neg.neg (Finset.sum_congr rfl fun u _ => ?_))
  show FloatOps.absf (F := Ideal) (φ := .f32) ((broadcastTo (α := EReal) S64x32x512 _ broadcasts_S64x32x1_S64x32x512) (ix3 p u j) - (broadcastTo (α := EReal) S64x32x512 _ broadcasts_S1x32x512_S64x32x512) (ix3 p u j)) = _
  rw [Cert.LibRank3.broadcastTo_ab1_abc_apply, Cert.LibRank3.shapeCast_ab_ab1_apply,
    Cert.LibLayout3.shapeCast_abc_mc_apply xr _ (0 : Fin 1) p u p (by simp),
    Cert.LibRank3.broadcastTo_1bc_abc_apply, Cert.LibLayout3.shapeCast_mc_abc_apply _ _ (0 : Fin 1) u j u (by simp),
    Cert.LibLayout3.shapeCast_abc_mc_apply xc _ (0 : Fin 1) u j u (by simp)]

/-- The stored 64-by-32 value at (p, o): output o's column at p, read off the two operands. -/
theorem cols_apply (x0 : Vec Ideal S32x64x32 .f32) (x1 : Vec Ideal S32x32x512 .f32) (p : Fin 64) (o : Fin 32) :
    concatenate S64x32 1 (cols x0 x1) (cols_cat x0 x1) (ix2 p o)
      = ∑ j : Fin 512, Ideal.exp (-(∑ u : Fin 32, FloatOps.absf (F := Ideal) (φ := .f32) (x0 (ix3 o p u) - x1 (ix3 o u j)))) := by
  refine (concatenate_ofFn_unit_apply (t := S64x32) (s₁ := S64x1) 1
    (fun n : Fin 32 => piece (View.ld x0 (rowRect n)) (View.ld x1 (colRect n))) (cols_cat x0 x1) rfl rfl (ix2 p o) o rfl
    (ix2 p (0 : Fin 1)) ?_).trans ?_
  · intro b hb
    match b with
    | ⟨0, _⟩ => rfl
    | ⟨1, _⟩ => exact absurd rfl hb
  · rw [piece_apply]
    refine Finset.sum_congr rfl fun j _ => congrArg Ideal.exp (congrArg Neg.neg (Finset.sum_congr rfl fun u _ => ?_))
    exact congrArg₂ (fun a b : EReal => FloatOps.absf (F := Ideal) (φ := .f32) (a - b)) (ld_row x0 o p u) (ld_col x1 o u j)

end Cert.KernelIdeal.Pair

end
-- ==== Proof.LibPlainContract.lean ====
/-
  A plain matrix contraction read at one entry.

  For the dimension numbers of an [M, K] by [K, N] product (contract the left operand's axis 1 with the right operand's
  axis 0, no batch axis), the sum over the contraction index that the exact matrix product takes at result entry (p, q)
  is the textbook sum over k < K of l[p, k] · r[k, q]. Stated for the sum itself, for a matrix unit's product into a
  zero accumulator, and for a host dot product, all at the exact (extended real) reading of floats.
-/
import Idealize.ShloMosaic.PureOps.Ideal.Laws
import Idealize.ShloMosaic.Lib.ValueIdx

noncomputable section

namespace Cert.LibPlainContract

open Idealize.ShloMosaic Idealize.ShloMosaic.ValueIdx

/-- The contraction index of a plain product has one axis, of extent K. -/
theorem plain_rank (M K N : Nat) : (DotDims.plain M K N).contr.rank = 1 := rfl
theorem plain_size (M K N : Nat) : (DotDims.plain M K N).contr.size ⟨0, Nat.one_pos⟩ = K := rfl

/-- At result entry (p, q) and contraction position k the left operand is read at (p, k) … -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    have hk := contrEquiv1_symm_val (DotDims.plain M K N) K rfl rfl k
    match a with
    | ⟨0, _⟩ => rfl
    | ⟨1, _⟩ => exact ((DotDims.plain M K N).lhsIdx_val_of_single rfl _ _).trans hk)

/-- … and the right operand at (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    have hk := contrEquiv1_symm_val (DotDims.plain M K N) K rfl rfl k
    match a with
    | ⟨0, _⟩ => exact ((DotDims.plain M K N).rhsIdx_val_of_single rfl _ _).trans hk
    | ⟨1, _⟩ => rfl)

/-- The contraction sum at entry (p, q) is the sum over k of l[p, k] · r[k, q]. -/
theorem plain_sum (M K N : Nat) (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  rw [plain_lhsIdx, plain_rhsIdx]

/-- A matrix unit's product into the zero accumulator, at entry (p, q). -/
theorem matmul_plain_apply (M K N : Nat) {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_sum M K N l r p q)

/-- A host dot product, at entry (p, q). -/
theorem dotGeneral_plain_apply (M K N : Nat) {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_sum M K N l r p q)

end Cert.LibPlainContract

end
-- ==== Proof.Spec.lean ====
/-
  The function both programs compute, over the extended reals.

  From x (512 by 2048) and w (2048 by 1024) form the product matrix h = x·w, entry (i, n) being the sum over k of
  x[i, k]·w[k, n]. Read each row of h as 32 units of 32 outputs: unit u, output o sits in column 32·u + o. The
  feature of row i at output o is the sum over all rows j of exp(−d), where d is the L1 distance between rows i and j
  restricted to output o, that is the sum over the 32 units u of |h[i, 32u + o] − h[j, 32u + o]|.
-/
import Idealize.ShloMosaic.PureOps.Ideal
import Idealize.ShloMosaic.Lib.ValueIdx

noncomputable section

namespace Cert.Pairwise

open Idealize.ShloMosaic Idealize.ShloMosaic.ValueIdx

/-- Entry (i, n) of the product matrix x·w. -/
def prod (x : FVec Ideal ⟨2, ![512, 2048]⟩ .f32) (w : FVec Ideal ⟨2, ![2048, 1024]⟩ .f32) (i : Fin 512) (n : Fin 1024) : EReal :=
  ∑ k : Fin 2048, x (ix2 i k) * w (ix2 k n)

/-- The column of the product matrix that holds unit u of output o. -/
def col (u o : Fin 32) : Fin 1024 := ⟨u.val * 32 + o.val, by have := u.isLt; have := o.isLt; omega⟩

/-- The L1 distance, over the 32 units of output o, between rows i and j of a matrix h. -/
def dist (h : Fin 512 → Fin 1024 → EReal) (i j : Fin 512) (o : Fin 32) : EReal :=
  ∑ u : Fin 32, FloatOps.absf (F := Ideal) (φ := .f32) (h i (col u o) - h j (col u o))

/-- The feature of row i at output o: the sum over all rows j of exp(−dist). -/
def feat (h : Fin 512 → Fin 1024 → EReal) (i : Fin 512) (o : Fin 32) : EReal :=
  ∑ j : Fin 512, Ideal.exp (-(dist h i j o))

/-- The whole result array, as a function of the two argument arrays. -/
def G (x : FVec Ideal ⟨2, ![512, 2048]⟩ .f32) (w : FVec Ideal ⟨2, ![2048, 1024]⟩ .f32) : FVec Ideal ⟨2, ![512, 32]⟩ .f32 :=
  fun idx => feat (prod x w) (idx 0) (idx 1)

theorem G_apply (x : FVec Ideal ⟨2, ![512, 2048]⟩ .f32) (w : FVec Ideal ⟨2, ![2048, 1024]⟩ .f32) (i : Fin 512) (o : Fin 32) :
    G x w (ix2 i o) = feat (prod x w) i o := rfl

end Cert.Pairwise

end
-- ==== Proof.Prod.lean ====
/-
  What the matrix-product region leaves: the product matrix x·w.

  The region runs over four grid points. Point t takes rows 128·t … 128·t + 127 of the first operand (all 2048 columns)
  and the whole second operand, multiplies them into a zero accumulator, and writes the 128-by-1024 result back as rows
  128·t … 128·t + 127 of the output. The operands are the two arguments after a cast to a narrower float format, which
  changes nothing over the extended reals. So entry (i, n) of the output is the sum over k of x[i, k]·w[k, n], and the
  four row blocks cover all 512 rows.
-/
import proofs.«170710_j27058293965069_2_alg».proof.Proof.Gen.KernelIdeal.Frame
import proofs.«170710_j27058293965069_2_alg».proof.Proof.LibPlainContract
import proofs.«170710_j27058293965069_2_alg».proof.Proof.Spec
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Prod

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's stored value at entry (p, q): the sum over k of the first block at (p, k) times the second at (k, q). -/
theorem pay_apply (x0 : Vec Ideal S128x2048 .bf16) (x1 : Vec Ideal S2048x1024 .bf16) (p : Fin 128) (q : Fin 1024) :
    k0_pay1 x0 x1 (ix2 p q) = ∑ k : Fin 2048, x0 (ix2 p k) * x1 (ix2 k q) := by
  unfold k0_pay1
  rw [shapeCast_self, shapeCast_self]
  exact Cert.LibPlainContract.matmul_plain_apply 128 2048 1024 none x0 x1 p q

/-- The product matrix as the contents of the region's output array. -/
def Hm (c : Dev nD) : S512x1024.Idx → EReal := fun i =>
  Cert.Pairwise.prod (m ((c.tc : Thread nD τ).loc main_arg0)) (m ((c.tc : Thread nD τ).loc main_arg1)) (i 0) (i 1)

/-- The first operand as the region finds it is the first argument: the cast is the identity here. -/
theorem V1_v0 (c : Dev nD) : (V1 m ρ c main_v0 : S512x2048.Idx → EReal) = m ((c.tc : Thread nD τ).loc main_arg0) := by
  dsimp only [V1, W1, hostOps0]
  after_results
  rfl

/-- The second operand as the region finds it is the second argument. -/
theorem V1_v1 (c : Dev nD) : (V1 m ρ c main_v1 : S2048x1024.Idx → EReal) = m ((c.tc : Thread nD τ).loc main_arg1) := by
  dsimp only [V1, W1, hostOps0]
  after_results
  rfl

/-- Where each window's block sits at point t: the first operand's and the output's at row block t, the second operand's
    always at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product matrix. -/
theorem flushed_eq (c : Dev nD) (t : Fin cfg0.N) :
    (dat0 (V1 m ρ) c).flushed 2 t = ((cfg0.win 2).blk t).view.read (Elt Ideal) (Hm m c) := by
  show (cfg0.win 2).cut (grid0.coords t) ((dat0 (V1 m ρ) c).after 2 t) = _
  rw [after0_2]
  unfold out0_2
  rw [View.canon_unit_zero hz]
  simp only [View.ld_unit_zero (S := S128x2048) hz, View.ld_unit_zero (S := S2048x1024) hz]
  obtain ⟨e0, e1, e2, e3, e4, e5⟩ := idx_facts t
  funext j
  obtain ⟨p, q, rfl⟩ : ∃ (p : Fin 128) (q : Fin 1024), j = ix2 p q := ⟨j 0, j 1, eq_ix2 j⟩
  show k0_pay1 (iblk0 (V1 m ρ) c 0 t) (iblk0 (V1 m ρ) c 1 t) (ix2 p q) = Hm m c (((cfg0.win 2).blk t).view.emb (ix2 p q))
  refine (pay_apply _ _ p q).trans ?_
  unfold Hm Cert.Pairwise.prod
  refine Finset.sum_congr rfl fun k _ => ?_
  refine congrArg₂ (fun a b : EReal => a * b) ?_ ?_
  · show V1 m ρ c main_v0 (((cfg0.win 0).blk t).view.emb (ix2 p k)) = _
    rw [V1_v0]
    refine congrArg _ ?_
    funext a; apply Fin.ext
    match a with
    | ⟨0, _⟩ => show win0_0.index t (0 : Fin 2) * 128 + 1 * p.val = win0_2.index t (0 : Fin 2) * 128 + 1 * p.val; omega
    | ⟨1, _⟩ => show win0_0.index t (1 : Fin 2) * 2048 + 1 * k.val = k.val; omega
  · show V1 m ρ c main_v1 (((cfg0.win 1).blk t).view.emb (ix2 k q)) = _
    rw [V1_v1]
    refine congrArg _ ?_
    funext a; apply Fin.ext
    match a with
    | ⟨0, _⟩ => show win0_1.index t (0 : Fin 2) * 2048 + 1 * k.val = k.val; omega
    | ⟨1, _⟩ => show win0_1.index t (1 : Fin 2) * 1024 + 1 * q.val = win0_2.index t (1 : Fin 2) * 1024 + 1 * q.val; omega

/-- An entry is in point t's output block iff its row is among the block's 128 rows (the block spans all columns). -/
theorem mem_blk (t : Fin cfg0.N) (i : S512x1024.Idx) :
    i ∈ ((cfg0.win 2).blk t).view.set ↔ ∀ a : Fin 2, win0_2.index t a * S128x1024.size a ≤ (i a).val ∧ (i a).val < win0_2.index t a * S128x1024.size a + S128x1024.size a := by
  show i ∈ ((View.whole main_v2).slice (win0_2.rect t)).set ↔ _
  rw [View.set_slice_whole, Rect.mem_set_unit]
  exact Iff.rfl

/-- Every entry is written back by some point: row r by point r / 128. -/
theorem cover (i : S512x1024.Idx) : ∃ t : Fin cfg0.N, (cfg0.win 2).flush t = true ∧ i ∈ ((cfg0.win 2).blk t).view.set := by
  have hi0 : (i 0).val < 512 := (i 0).isLt
  have hi1 : (i 1).val < 1024 := (i 1).isLt
  have ht : (i 0).val / 128 < 4 := by omega
  refine ⟨⟨(i 0).val / 128, ht⟩, flush0_2 _, ?_⟩
  rw [mem_blk]
  obtain ⟨-, -, -, -, e4, e5⟩ := idx_facts ⟨(i 0).val / 128, ht⟩
  intro a
  match a with
  | ⟨0, _⟩ =>
    show win0_2.index ⟨(i 0).val / 128, ht⟩ (0 : Fin 2) * 128 ≤ (i 0).val ∧ (i 0).val < win0_2.index ⟨(i 0).val / 128, ht⟩ (0 : Fin 2) * 128 + 128
    rw [e4]; show (i 0).val / 128 * 128 ≤ (i 0).val ∧ (i 0).val < (i 0).val / 128 * 128 + 128; omega
  | ⟨1, _⟩ =>
    show win0_2.index ⟨(i 0).val / 128, ht⟩ (1 : Fin 2) * 1024 ≤ (i 1).val ∧ (i 1).val < win0_2.index ⟨(i 0).val / 128, ht⟩ (1 : Fin 2) * 1024 + 1024
    rw [e5]; omega

/-- The region's output array after its last point: the product matrix. -/
theorem final (c : Dev nD) : (dat0 (V1 m ρ) c).arrAt 2 cfg0.N = Hm m c :=
  (dat0 (V1 m ρ) c).arrAt_eq_of_cover 2 (Hm m c) (fun t _ => flushed_eq m ρ c t) (cover)

/-- So at the region's exit the product buffer holds the product matrix. -/
theorem W2_prod (c : Dev nD) : (W2 m ρ c (Proc.devRef .tc main_v2) : S512x1024.Idx → EReal) = Hm m c :=
  (W2_arr m ρ c 2).trans (final m ρ c)

end Cert.KernelIdeal.Prod

end
-- ==== Proof.Mid.lean ====
/-
  The two operands of the pairwise region, read at an entry.

  Between the regions the 512-by-1024 product matrix h is viewed as [512, 32, 32] (row i, unit u, output o sits in
  column 32·u + o) and transposed twice: the row operand is indexed [o, i, u] and the column operand [o, u, j]. Both
  are rearrangements of h: the row operand at [o, i, u] is h[i, 32u + o], and the column operand at [o, u, j] is
  h[j, 32u + o].
-/
import proofs.«170710_j27058293965069_2_alg».proof.Proof.Prod

set_option maxRecDepth 16384

noncomputable section

namespace Cert.KernelIdeal.Mid

open Cert.KernelIdeal Cert.KernelIdeal.Gen
open Idealize.ShloMosaic Idealize.ShloMosaic.TcCoe Idealize.ShloMosaic.ValueIdx Idealize.SL.Sem Idealize.ShloMosaic.StableHlo
open Cert.Pairwise (prod col)

variable (m : (ℓ : Loc nD τ sig) → Buf (Elt Ideal) ℓ) (ρ : Dev nD → PrngReg)

/-- The row operand as the pairwise region finds it: the product buffer reshaped and transposed to [o, i, u]. -/
theorem V3_v4 (c : Dev nD) : (V3 m ρ c main_v4 : S32x512x32.Idx → EReal)
    = transpose S32x512x32 [2, 0, 1]
        (shapeCast S512x32x32 (W2 m ρ c (Proc.devRef .tc main_v2) : S512x1024.Idx → EReal) shapeCasts_S512x1024_S512x32x32)
        transposes_S512x32x32_S32x512x32_2_0_1 := by
  dsimp only [V3, W3, hostOps1]
  after_results
  rfl

/-- The column operand as the pairwise region finds it: the product buffer reshaped and transposed to [o, u, j]. -/
theorem V3_v5 (c : Dev nD) : (V3 m ρ c main_v5 : S32x32x512.Idx → EReal)
    = transpose S32x32x512 [2, 1, 0]
        (shapeCast S512x32x32 (W2 m ρ c (Proc.devRef .tc main_v2) : S512x1024.Idx → EReal) shapeCasts_S512x1024_S512x32x32)
        transposes_S512x32x32_S32x32x512_2_1_0 := by
  dsimp only [V3, W3, hostOps1]
  after_results
  rfl

/-- The [512, 32, 32] view of the product matrix at (i, u, o) is the matrix at (i, 32u + o). -/
theorem view3_apply (y : S512x1024.Idx → EReal) (i : Fin 512) (u o : Fin 32) :
    shapeCast S512x32x32 y shapeCasts_S512x1024_S512x32x32 (ix3 i u o) = y (ix2 i (col u o)) :=
  shapeCast_apply y shapeCasts_S512x1024_S512x32x32 _ _ (by
    rw [Shape.rowMajor_val_two, Shape.rowMajor_val_three]
    show i.val * 1024 + (u.val * 32 + o.val) = (i.val * 32 + u.val) * 32 + o.val
    omega)

/-- The row operand at [o, i, u] is the product matrix at (i, 32u + o). -/
theorem row_apply (c : Dev nD) (o : Fin 32) (i : Fin 512) (u : Fin 32) :
    (V3 m ρ c main_v4 : S32x512x32.Idx → EReal) (ix3 o i u)
      = prod (m ((c.tc : Thread nD τ).loc main_arg0)) (m ((c.tc : Thread nD τ).loc main_arg1)) i (col u o) := by
  rw [V3_v4, Cert.KernelIdeal.Prod.W2_prod]
  refine (transpose_apply [2, 0, 1] _ transposes_S512x32x32_S32x512x32_2_0_1 (ix3 o i u) (ix3 i u o) (fun b => match b with
    | ⟨0, _⟩ => rfl
    | ⟨1, _⟩ => rfl
    | ⟨2, _⟩ => rfl)).trans ?_
  exact view3_apply _ i u o

/-- The column operand at [o, u, j] is the product matrix at (j, 32u + o). -/
theorem col_apply (c : Dev nD) (o u : Fin 32) (j : Fin 512) :
    (V3 m ρ c main_v5 : S32x32x512.Idx → EReal) (ix3 o u j)
      = prod (m ((c.tc : Thread nD τ).loc main_arg0)) (m ((c.tc : Thread nD τ).loc main_arg1)) j (col u o) := by
  rw [V3_v5, Cert.KernelIdeal.Prod.W2_prod]
  refine (transpose_apply [2, 1, 0] _ transposes_S512x32x32_S32x32x512_2_1_0 (ix3 o u j) (ix3 j u o) (fun b => match b with
    | ⟨0, _⟩ => rfl
    | ⟨1, _⟩ => rfl
    | ⟨2, _⟩ => rfl)).trans ?_
  exact view3_apply _ j u o

end Cert.KernelIdeal.Mid

end
-- ==== Proof.Feat.lean ====
/-
  What the pairwise region leaves: the feature array.

  The region runs over eight grid points. Point t takes rows 64·t … 64·t + 63 of the row operand (for every output and
  unit) and the whole column operand, and writes a 64-by-32 block back as rows 64·t … 64·t + 63 of the result. Entry
  (p, o) of that block is the sum over all rows j of exp(0 − the sum over units u of |row[o, 64t + p, u] − col[o, u, j]|).
  Both operands are rearrangements of the product matrix h, so this is the feature of row 64t + p at output o; and on
  the extended reals 0 − d = −d. The eight row blocks cover all 512 rows.
-/
import proofs.«170710_j27058293965069_2_alg».proof.Proof.Piece
import proofs.«170710_j27058293965069_2_alg».proof.Proof.Mid

set_option maxRecDepth 16384

noncomputable section

namespace Cert.KernelIdeal.Feat

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The specification's result array at this launch's arguments. -/
def Gm (c : Dev nD) : S512x32.Idx → EReal :=
  Cert.Pairwise.G (m ((c.tc : Thread nD τ).loc main_arg0)) (m ((c.tc : Thread nD τ).loc main_arg1))

/-- Where each window's block sits at point t: the row operand's at row block t of its middle axis, the column
    operand's at the origin, the output's at row block t. -/
theorem idx_facts : ∀ t : Fin cfg1.N, win1_0.index t (0 : Fin 3) = 0 ∧ win1_0.index t (1 : Fin 3) = t.val ∧ win1_0.index t (2 : Fin 3) = 0
    ∧ win1_1.index t (0 : Fin 3) = 0 ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-- What point t writes back is block t of the feature array. -/
theorem flushed_eq (c : Dev nD) (t : Fin cfg1.N) :
    (dat1 (V3 m ρ) c).flushed 2 t = ((cfg1.win 2).blk t).view.read (Elt Ideal) (Gm m c) := by
  show (cfg1.win 2).cut (grid1.coords t) ((dat1 (V3 m ρ) c).after 2 t) = _
  rw [after1_2]
  unfold out1_2
  rw [View.canon_unit_zero hz]
  obtain ⟨e0, e1, e2, e3, e4, e5, e6, e7⟩ := idx_facts t
  have ht : t.val < 8 := t.isLt
  funext j
  obtain ⟨p, o, rfl⟩ : ∃ (p : Fin 64) (o : Fin 32), j = ix2 p o := ⟨j 0, j 1, eq_ix2 j⟩
  have hp : p.val < 64 := p.isLt
  have hI : t.val * 64 + p.val < 512 := by omega
  show concatenate S64x32 1 (Cert.KernelIdeal.Pair.cols (iblk1 (V3 m ρ) c 0 t) (iblk1 (V3 m ρ) c 1 t))
      (Cert.KernelIdeal.Pair.cols_cat _ _) (ix2 p o) = Gm m c (((cfg1.win 2).blk t).view.emb (ix2 p o))
  refine (Cert.KernelIdeal.Pair.cols_apply _ _ p o).trans ?_
  have eI : ((cfg1.win 2).blk t).view.emb (ix2 p o) = ix2 (⟨t.val * 64 + p.val, hI⟩ : Fin 512) o := by
    funext a; apply Fin.ext
    match a with
    | ⟨0, _⟩ => show win1_2.index t (0 : Fin 2) * 64 + 1 * p.val = t.val * 64 + p.val; omega
    | ⟨1, _⟩ => show win1_2.index t (1 : Fin 2) * 32 + 1 * o.val = o.val; omega
  rw [eI]
  unfold Gm
  rw [Cert.Pairwise.G_apply]
  unfold Cert.Pairwise.feat Cert.Pairwise.dist
  refine Finset.sum_congr rfl fun jj _ => congrArg Ideal.exp (congrArg Neg.neg (Finset.sum_congr rfl fun u _ => ?_))
  refine congrArg₂ (fun a b : EReal => FloatOps.absf (F := Ideal) (φ := .f32) (a - b)) ?_ ?_
  · show V3 m ρ c main_v4 (((cfg1.win 0).blk t).view.emb (ix3 o p u)) = _
    have e : ((cfg1.win 0).blk t).view.emb (ix3 o p u) = ix3 o (⟨t.val * 64 + p.val, hI⟩ : Fin 512) u := by
      funext a; apply Fin.ext
      match a with
      | ⟨0, _⟩ => show win1_0.index t (0 : Fin 3) * 32 + 1 * o.val = o.val; omega
      | ⟨1, _⟩ => show win1_0.index t (1 : Fin 3) * 64 + 1 * p.val = t.val * 64 + p.val; omega
      | ⟨2, _⟩ => show win1_0.index t (2 : Fin 3) * 32 + 1 * u.val = u.val; omega
    rw [e]
    exact Cert.KernelIdeal.Mid.row_apply m ρ c o _ u
  · show V3 m ρ c main_v5 (((cfg1.win 1).blk t).view.emb (ix3 o u jj)) = _
    have e : ((cfg1.win 1).blk t).view.emb (ix3 o u jj) = ix3 o u jj := by
      funext a; apply Fin.ext
      match a with
      | ⟨0, _⟩ => show win1_1.index t (0 : Fin 3) * 32 + 1 * o.val = o.val; omega
      | ⟨1, _⟩ => show win1_1.index t (1 : Fin 3) * 32 + 1 * u.val = u.val; omega
      | ⟨2, _⟩ => show win1_1.index t (2 : Fin 3) * 512 + 1 * jj.val = jj.val; omega
    rw [e]
    exact Cert.KernelIdeal.Mid.col_apply m ρ c o u jj

/-- An entry is in point t's output block iff its row is among the block's 64 rows (the block spans all 32 columns). -/
theorem mem_blk (t : Fin cfg1.N) (i : S512x32.Idx) :
    i ∈ ((cfg1.win 2).blk t).view.set ↔ ∀ a : Fin 2, win1_2.index t a * S64x32.size a ≤ (i a).val ∧ (i a).val < win1_2.index t a * S64x32.size a + S64x32.size a := by
  show i ∈ ((View.whole main_v6).slice (win1_2.rect t)).set ↔ _
  rw [View.set_slice_whole, Rect.mem_set_unit]
  exact Iff.rfl

/-- Every entry is written back by some point: row r by point r / 64. -/
theorem cover (i : S512x32.Idx) : ∃ t : Fin cfg1.N, (cfg1.win 2).flush t = true ∧ i ∈ ((cfg1.win 2).blk t).view.set := by
  have hi0 : (i 0).val < 512 := (i 0).isLt
  have hi1 : (i 1).val < 32 := (i 1).isLt
  have ht : (i 0).val / 64 < 8 := by omega
  refine ⟨⟨(i 0).val / 64, ht⟩, flush1_2 _, ?_⟩
  rw [mem_blk]
  obtain ⟨-, -, -, -, -, -, e6, e7⟩ := idx_facts ⟨(i 0).val / 64, ht⟩
  intro a
  match a with
  | ⟨0, _⟩ =>
    show win1_2.index ⟨(i 0).val / 64, ht⟩ (0 : Fin 2) * 64 ≤ (i 0).val ∧ (i 0).val < win1_2.index ⟨(i 0).val / 64, ht⟩ (0 : Fin 2) * 64 + 64
    rw [e6]; show (i 0).val / 64 * 64 ≤ (i 0).val ∧ (i 0).val < (i 0).val / 64 * 64 + 64; omega
  | ⟨1, _⟩ =>
    show win1_2.index ⟨(i 0).val / 64, ht⟩ (1 : Fin 2) * 32 ≤ (i 1).val ∧ (i 1).val < win1_2.index ⟨(i 0).val / 64, ht⟩ (1 : Fin 2) * 32 + 32
    rw [e7]; omega

/-- The region's output array after its last point: the feature array. -/
theorem final (c : Dev nD) : (dat1 (V3 m ρ) c).arrAt 2 cfg1.N = Gm m c :=
  (dat1 (V3 m ρ) c).arrAt_eq_of_cover 2 (Gm m c) (fun t _ => flushed_eq m ρ c t) (cover)

/-- So at the program's end the result buffer holds the feature array. -/
theorem W4_result (c : Dev nD) : (W4 m ρ c (Proc.devRef .tc main_v6) : S512x32.Idx → EReal) = Gm m c :=
  (W4_arr m ρ c 2).trans (final m ρ c)

end Cert.KernelIdeal.Feat

end
-- ==== Proof.RefIsG.lean ====
/-
  The reference computes the same function.

  The reference forms the product matrix h = x·w with one host product, views it as [512, 32, 32] (row i, unit u,
  output o at column 32u + o), and spreads it two ways into a [512, 32, 32, 512] array: entry (i, u, o, j) of the first
  spread is h[i, 32u + o] and of the second is h[j, 32u + o]. It subtracts, takes absolute values, sums over the unit
  axis from zero, negates, exponentiates, and sums over the last axis from zero. Read at (i, o) that is the sum over j
  of exp(−(sum over u of |h[i, 32u + o] − h[j, 32u + o]|)): the specification. A sum started from zero is the sum.
-/
import proofs.«170710_j27058293965069_2_alg».proof.Proof.Gen.ReferenceIdeal.Read
import proofs.«170710_j27058293965069_2_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open Cert.Pairwise (prod col feat G)

variable (x : (⟨S512x2048, .f32⟩ : BufTy).Contents (Elt Ideal)) (w : (⟨S2048x1024, .f32⟩ : BufTy).Contents (Elt Ideal))

/-- The host product at (a, n) is the product matrix there. -/
theorem v0_apply (a : Fin 512) (n : Fin 1024) : val_main_v0 (F := Ideal) x w (ix2 a n) = prod x w a n := by
  rw [val_main_v0_apply]
  unfold prod
  refine Finset.sum_congr rfl fun k _ => ?_
  refine congrArg₂ (fun a b : EReal => a * b) (congrArg x ?_) (congrArg w ?_)
  · exact funext fun d => Fin.ext (by match d with | ⟨0, _⟩ => rfl | ⟨1, _⟩ => rfl)
  · exact funext fun d => Fin.ext (by match d with | ⟨0, _⟩ => rfl | ⟨1, _⟩ => rfl)

/-- The [512, 32, 32] view at (i, u, o) is the product matrix at (i, 32u + o). -/
theorem v1_apply (i : Fin 512) (u o : Fin 32) : val_main_v1 (F := Ideal) x w (ix3 i u o) = prod x w i (col u o) := by
  rw [val_main_v1_apply]
  have e : idx_main_v1 (ix3 i u o) = ix2 i (col u o) := funext fun d => Fin.ext (by
    have hi := i.isLt; have hu := u.isLt; have ho := o.isLt
    match d with
    | ⟨0, _⟩ => show ((i.val * 32 + u.val) * 32 + o.val) / 1024 = i.val; omega
    | ⟨1, _⟩ => show ((i.val * 32 + u.val) * 32 + o.val) % 1024 = u.val * 32 + o.val; omega)
  rw [e, v0_apply]

/-- The first spread at (i, u, o, j) is the product matrix at (i, 32u + o). -/
theorem v5_apply (i : Fin 512) (u o : Fin 32) (j : Fin 512) :
    val_main_v5 (F := Ideal) x w (ix4 i u o j) = prod x w i (col u o) := by
  rw [val_main_v5_apply, val_main_v2_apply]
  have e : idx_main_v2 (idx_main_v5 (ix4 i u o j)) = ix3 i u o := funext fun d => Fin.ext (by
    match d with | ⟨0, _⟩ => rfl | ⟨1, _⟩ => rfl | ⟨2, _⟩ => rfl)
  rw [e, v1_apply]

/-- The second spread at (i, u, o, j) is the product matrix at (j, 32u + o). -/
theorem v6_apply (i : Fin 512) (u o : Fin 32) (j : Fin 512) :
    val_main_v6 (F := Ideal) x w (ix4 i u o j) = prod x w j (col u o) := by
  rw [val_main_v6_apply, val_main_v4_apply, val_main_v3_apply]
  have e : idx_main_v3 (idx_main_v4 (idx_main_v6 (ix4 i u o j))) = ix3 j u o := funext fun d => Fin.ext (by
    match d with | ⟨0, _⟩ => rfl | ⟨1, _⟩ => rfl | ⟨2, _⟩ => rfl)
  rw [e, v1_apply]

/-- The sum over units at (i, o, j) is the distance between rows i and j at output o. -/
theorem v9_apply (i : Fin 512) (o : Fin 32) (j : Fin 512) :
    val_main_v9 (F := Ideal) x w (ix3 i o j) = Cert.Pairwise.dist (prod x w) i j o := by
  rw [val_main_v9_apply, val_main_cst_apply, Ideal.ofBits_def, Ideal.ofBits_zero_f32, zero_add]
  unfold Cert.Pairwise.dist
  refine Finset.sum_congr rfl fun u _ => ?_
  have e : idx_main_v9 (ix3 i o j) u = ix4 i u o j := funext fun d => Fin.ext (by
    match d with | ⟨0, _⟩ => rfl | ⟨1, _⟩ => rfl | ⟨2, _⟩ => rfl | ⟨3, _⟩ => rfl)
  rw [e, val_main_v8_apply, val_main_v7_apply, v5_apply, v6_apply]
  rfl

/-- The reference's result array is the specification's. -/
theorem result_eq : val_main_v12 (F := Ideal) x w = G x w := by
  funext idx
  obtain ⟨i, o, rfl⟩ : ∃ (i : Fin 512) (o : Fin 32), idx = ix2 i o := ⟨idx 0, idx 1, eq_ix2 idx⟩
  rw [Cert.Pairwise.G_apply, val_main_v12_apply, val_main_cst_0_apply, Ideal.ofBits_def, Ideal.ofBits_zero_f32, zero_add]
  unfold feat
  refine Finset.sum_congr rfl fun j _ => ?_
  have e : idx_main_v12 (ix2 i o) j = ix3 i o j := funext fun d => Fin.ext (by
    match d with | ⟨0, _⟩ => rfl | ⟨1, _⟩ => rfl | ⟨2, _⟩ => rfl)
  rw [e, val_main_v11_apply, val_main_v10_apply, v9_apply]
  rfl

end Cert.ReferenceIdeal.RefValue

end
-- ==== Proof.lean ====
/-
  A pairwise-distance feature kernel against its plain reference, over the extended reals.

  From x (512 by 2048) and w (2048 by 1024) both programs form the product matrix h = x·w, read each row of h as 32
  units of 32 outputs (unit u, output o in column 32u + o), and return for row i and output o the sum over all rows j of
  exp(−d), where d is the sum over the units u of |h[i, 32u + o] − h[j, 32u + o]|.

  The kernel does it in two regions. The first multiplies 128 rows of x at a time by all of w into a zero accumulator;
  its operands are cast to a narrower float format first, which is the identity on the extended reals, and it
  contracts the whole inner axis at once, so each entry of h is one sum over k. Between the regions h is rearranged
  into a row operand [o, i, u] and a column operand [o, u, j]. The second region takes 64 rows i at a time and, output
  by output, forms |row − col|, sums over u, subtracts from zero, exponentiates and sums over j. The reference does
  the same with one host product and two broadcasts into a [512, 32, 32, 512] array.

  The two sides differ only in how entries are laid out and addressed, in the kernel writing the negation as 0 − d
  (equal to −d for every extended real d), and in both starting their sums from zero (0 + s = s). No step uses that the
  inputs are finite. The idealized kernel is the kernel's own text read over the extended reals, so nothing is owed
  for the idealization.
-/
import proofs.«170710_j27058293965069_2_alg».proof.Defs
import proofs.«170710_j27058293965069_2_alg».proof.Proof.Gen.Kernel
import proofs.«170710_j27058293965069_2_alg».proof.Proof.Gen.Kernel.Skeleton
import proofs.«170710_j27058293965069_2_alg».proof.Proof.Gen.Kernel.Launch
import proofs.«170710_j27058293965069_2_alg».proof.Proof.Gen.Kernel.Points
import proofs.«170710_j27058293965069_2_alg».proof.Proof.Gen.Kernel.Frame
import proofs.«170710_j27058293965069_2_alg».proof.Proof.Gen.KernelIdeal
import proofs.«170710_j27058293965069_2_alg».proof.Proof.Gen.KernelIdeal.Skeleton
import proofs.«170710_j27058293965069_2_alg».proof.Proof.Gen.KernelIdeal.Launch
import proofs.«170710_j27058293965069_2_alg».proof.Proof.Gen.KernelIdeal.Points
import proofs.«170710_j27058293965069_2_alg».proof.Proof.Gen.KernelIdeal.Frame
import proofs.«170710_j27058293965069_2_alg».proof.Proof.Gen.ReferenceIdeal
import proofs.«170710_j27058293965069_2_alg».proof.Proof.Gen.ReferenceIdeal.Run
import proofs.«170710_j27058293965069_2_alg».proof.Proof.Gen.ReferenceIdeal.Read
import proofs.«170710_j27058293965069_2_alg».proof.Proof.Gen.Pre_finite_inputs
import proofs.«170710_j27058293965069_2_alg».proof.Proof.RunNamed
import proofs.«170710_j27058293965069_2_alg».proof.Proof.Feat
import proofs.«170710_j27058293965069_2_alg».proof.Proof.RefIsG
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as launched. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the feature array of those arguments. -/
theorem algebraic : Cert.algebraic_KernelIdeal_ReferenceIdeal := by
  intro m ρ m' ρ' _ hagree
  refine ⟨fun c => Cert.Pairwise.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Feat.W4_result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v12_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
